-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S835584 : Shape := ⟨1, ![835584]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S835584 : S_.BroadcastsInDim S835584 (![] : Fin 0 → Fin S835584.rank)
  reducesTo_S835584_S_d0 : S835584.ReducesTo [0] S_

variable [Facts]

def fn_part1 {F : FTy → Type} [FloatOps F] (main_v13 : IVec S_ 1) (main_v16 : IVec S835584 1) : IVec S_ 1 :=
  let main_c_5 : IVec S_ 1 := constantI S_ 1 1#1
  let main_v17 : IVec S_ 1 := (fun x v => Host.reduce IntOp.andi x v reducesTo_S835584_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096 .f32) (main_arg3 : FVec F S835584 .f32) (main_arg4 : IVec S835584 32) (main_arg5 : IVec S835584 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S835584 .f32 := Host.absf main_arg3
  let main_cst_4 : FVec F S_ .f32 := constant S_ .f32 0x7F800000#32
  let main_v15 : FVec F S835584 .f32 := broadcastInDim S835584 ![] bcast_S_S835584 main_cst_4
  let main_v16 : IVec S835584 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S835584 : Shape := ⟨1, ![835584]⟩
abbrev S_ : Shape := ⟨0, ![]⟩
abbrev S835584x1 : Shape := ⟨2, ![835584, 1]⟩
abbrev S835584x2 : Shape := ⟨2, ![835584, 2]⟩
abbrev S1x4096 : Shape := ⟨2, ![1, 4096]⟩
abbrev S512x4096 : Shape := ⟨2, ![512, 4096]⟩
abbrev S1x512 : Shape := ⟨2, ![1, 512]⟩
abbrev S512x512 : Shape := ⟨2, ![512, 512]⟩

abbrev nBuf : Space → Nat
  | .hbm => 27
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S835584, .f32⟩
  | .hbm, ⟨4, _⟩ => ⟨S835584, .i32⟩
  | .hbm, ⟨5, _⟩ => ⟨S835584, .i32⟩
  | .hbm, ⟨6, _⟩ => ⟨S_, .i32⟩
  | .hbm, ⟨7, _⟩ => ⟨S835584, .i32⟩
  | .hbm, ⟨8, _⟩ => ⟨S835584, .i1⟩
  | .hbm, ⟨9, _⟩ => ⟨S_, .i32⟩
  | .hbm, ⟨10, _⟩ => ⟨S835584, .i32⟩
  | .hbm, ⟨11, _⟩ => ⟨S835584, .i32⟩
  | .hbm, ⟨12, _⟩ => ⟨S835584, .i32⟩
  | .hbm, ⟨13, _⟩ => ⟨S_, .i32⟩
  | .hbm, ⟨14, _⟩ => ⟨S835584, .i32⟩
  | .hbm, ⟨15, _⟩ => ⟨S835584, .i1⟩
  | .hbm, ⟨16, _⟩ => ⟨S_, .i32⟩
  | .hbm, ⟨17, _⟩ => ⟨S835584, .i32⟩
  | .hbm, ⟨18, _⟩ => ⟨S835584, .i32⟩
  | .hbm, ⟨19, _⟩ => ⟨S835584, .i32⟩
  | .hbm, ⟨20, _⟩ => ⟨S835584x1, .i32⟩
  | .hbm, ⟨21, _⟩ => ⟨S835584x1, .i32⟩
  | .hbm, ⟨22, _⟩ => ⟨S835584x2, .i32⟩
  | .hbm, ⟨23, _⟩ => ⟨S4096x4096, .f32⟩
  | .hbm, ⟨24, _⟩ => ⟨S8192x4096, .bf16⟩
  | .hbm, ⟨25, _⟩ => ⟨S1x4096, .f32⟩
  | .hbm, ⟨26, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S835584 : S_.BroadcastsInDim S835584 (![] : Fin 0 → Fin S835584.rank)
  bcast_S835584_S835584x1_0 : S835584.BroadcastsInDim S835584x1 (![0] : Fin 1 → Fin S835584x1.rank)
  concatenates_S835584x1_S835584x1_S835584x2_d1 : Shape.Concatenates [S835584x1, S835584x1] S835584x2 1
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  scatter_S4096x4096_S835584x2_S835584_n_01_01_1_wf : ScatterDims.WF S4096x4096 S835584x2 S835584 [] [0, 1] [0, 1] 1
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x4096.size a
  hwx0_3 : ∀ i : grid0.Coords, EltTy.bits .f32 = 32 ∨ (Rect.block (s := S8192x4096) S512x512.size (cc0_transform_3 i) (hinb0_3 i)).WholeWords (EltTy.packing .f32)

variable [Facts₀]

def scatter_S4096x4096_S835584x2_S835584_n_01_01_1 : ScatterDims S4096x4096 S835584x2 S835584 where
  updateWindowDims := []
  insertedWindowDims := [0, 1]
  scatterDimsToOperandDims := [0, 1]
  indexVectorDim := 1
  wf := scatter_S4096x4096_S835584x2_S835584_n_01_01_1_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v14) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S835584 : Shape := ⟨1, ![835584]⟩
abbrev S_ : Shape := ⟨0, ![]⟩
abbrev S835584x1 : Shape := ⟨2, ![835584, 1]⟩
abbrev S835584x2 : Shape := ⟨2, ![835584, 2]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S835584, .f32⟩
  | .hbm, ⟨4, _⟩ => ⟨S835584, .i32⟩
  | .hbm, ⟨5, _⟩ => ⟨S835584, .i32⟩
  | .hbm, ⟨6, _⟩ => ⟨S_, .i32⟩
  | .hbm, ⟨7, _⟩ => ⟨S835584, .i32⟩
  | .hbm, ⟨8, _⟩ => ⟨S835584, .i1⟩
  | .hbm, ⟨9, _⟩ => ⟨S_, .i32⟩
  | .hbm, ⟨10, _⟩ => ⟨S835584, .i32⟩
  | .hbm, ⟨11, _⟩ => ⟨S835584, .i32⟩
  | .hbm, ⟨12, _⟩ => ⟨S835584, .i32⟩
  | .hbm, ⟨13, _⟩ => ⟨S_, .i32⟩
  | .hbm, ⟨14, _⟩ => ⟨S835584, .i32⟩
  | .hbm, ⟨15, _⟩ => ⟨S835584, .i1⟩
  | .hbm, ⟨16, _⟩ => ⟨S_, .i32⟩
  | .hbm, ⟨17, _⟩ => ⟨S835584, .i32⟩
  | .hbm, ⟨18, _⟩ => ⟨S835584, .i32⟩
  | .hbm, ⟨19, _⟩ => ⟨S835584, .i32⟩
  | .hbm, ⟨20, _⟩ => ⟨S835584x1, .i32⟩
  | .hbm, ⟨21, _⟩ => ⟨S835584x1, .i32⟩
  | .hbm, ⟨22, _⟩ => ⟨S835584x2, .i32⟩
  | .hbm, ⟨23, _⟩ => ⟨S4096x4096, .f32⟩
  | .hbm, ⟨24, _⟩ => ⟨S4096x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S835584 : S_.BroadcastsInDim S835584 (![] : Fin 0 → Fin S835584.rank)
  bcast_S835584_S835584x1_0 : S835584.BroadcastsInDim S835584x1 (![0] : Fin 1 → Fin S835584x1.rank)
  concatenates_S835584x1_S835584x1_S835584x2_d1 : Shape.Concatenates [S835584x1, S835584x1] S835584x2 1
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S4096x4096_S835584x2_S835584_n_01_01_1_wf : ScatterDims.WF S4096x4096 S835584x2 S835584 [] [0, 1] [0, 1] 1
  dot_S8192x4096_S4096x4096_S8192x4096_1_0_0_1_n_n_wf : DotDims.WF S8192x4096 S4096x4096 S8192x4096 [1] [0] [0] [1] [] []

variable [Facts₀]

def scatter_S4096x4096_S835584x2_S835584_n_01_01_1 : ScatterDims S4096x4096 S835584x2 S835584 where
  updateWindowDims := []
  insertedWindowDims := [0, 1]
  scatterDimsToOperandDims := [0, 1]
  indexVectorDim := 1
  wf := scatter_S4096x4096_S835584x2_S835584_n_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Affine.lean ====
/-
  The dense layer both programs compute, as ONE function of three arrays over the extended reals:
  for tokens `x : [8192, 4096]`, weights `w : [4096, 4096]` (one row per output feature) and a bias
  `b : [4096]`, entry `(t, o)` of the result is `Σ_k x[t, k] · w[o, k] + b[o]`: row `t` of `x` against row `o` of
  `w`, that is `x · wᵀ + b`. The sum runs over the 4096 input features in their own order, so a program that
  contracts axis 1 of `x` with axis 1 of `w`, and one that first transposes `w` and contracts axis 1 with axis 0,
  add the same products in the same order: no law of the extended reals beyond reading the terms is needed.
-/
import Idealize.ShloMosaic.PureOps.Ideal
import Idealize.ShloMosaic.Lib.ValueIdx

noncomputable section

open scoped BigOperators

namespace Cert.Linear

open Idealize.ShloMosaic Idealize.ShloMosaic.ValueIdx

/-- Entry `(t, o)` of `x · wᵀ + b`, at coordinates of literal extents. -/
def entry (x : (⟨2, ![8192, 4096]⟩ : Shape).Idx → EReal) (w : (⟨2, ![4096, 4096]⟩ : Shape).Idx → EReal)
    (b : (⟨1, ![4096]⟩ : Shape).Idx → EReal) (t : Fin 8192) (o : Fin 4096) : EReal :=
  (∑ k : Fin 4096, x (ix2 t k) * w (ix2 o k)) + b (ix1 o)

/-- The whole result array: `x · wᵀ + b`, index by index. -/
def layer (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => entry x w b ⟨(i 0).val, idx2_lt0 i⟩ ⟨(i 1).val, idx2_lt1 i⟩

/-- The result array read at an index given by its coordinates. -/
theorem layer_ix2 (x : (⟨2, ![8192, 4096]⟩ : Shape).Idx → EReal) (w : (⟨2, ![4096, 4096]⟩ : Shape).Idx → EReal)
    (b : (⟨1, ![4096]⟩ : Shape).Idx → EReal) (t : Fin 8192) (o : Fin 4096) :
    layer x w b (ix2 t o) = entry x w b t o := rfl

end Cert.Linear

end
-- ==== Proof.RefLayer.lean ====
/-
  The reference's result is the dense layer of its arguments. Read one operation at a time, the reference adds to
  the product `x · (transpose W)` — entry `(t, o)` the sum over `k` of `x[t, k] · (transpose W)[k, o]`, and
  `(transpose W)[k, o] = W[o, k]` — the bias broadcast along the tokens, `b[o]` at every `(t, o)`; `W` is the
  weight array after the scattered additions, carried here as one array and never opened.
-/
import proofs.«105380_j84344567759316_2_alg».proof.Proof.Gen.ReferenceIdeal.Read
import proofs.«105380_j84344567759316_2_alg».proof.Proof.Affine

noncomputable section

open scoped BigOperators

namespace Cert.ReferenceIdeal.Layer

open Cert.ReferenceIdeal Cert.ReferenceIdeal.Read Idealize.ShloMosaic Idealize.ShloMosaic.ValueIdx

/-- The reference's last stage is `x · Wᵀ + b` with `W` the scattered weights: the left factor is read at
    `(t, k)`, the transposed right factor at `(k, o)`, which is the weights at `(o, k)`, and the twice-broadcast
    bias at `(t, o)` is the bias at `o`. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S835584, .f32⟩ : BufTy).Contents (Elt Ideal))
    (x4 x5 : (⟨S835584, .i32⟩ : BufTy).Contents (Elt Ideal)) :
    val_main_v18 (F := Ideal) x0 x1 x2 x3 x4 x5
      = Cert.Linear.layer x0 (val_main_v13 (F := Ideal) x1 x3 x4 x5) x2 := by
  funext i
  have el : ∀ k : Fin 4096, lidx_main_v15 i k = ix2 (⟨(i 0).val, idx2_lt0 i⟩ : Fin 8192) k := fun k =>
    funext fun a => Fin.ext (by match a with | ⟨0, _⟩ => rfl | ⟨1, _⟩ => rfl)
  have er : ∀ k : Fin 4096, idx_main_v14 (ridx_main_v15 i k) = ix2 (⟨(i 1).val, idx2_lt1 i⟩ : Fin 4096) k := fun k =>
    funext fun a => Fin.ext (by match a with | ⟨0, _⟩ => rfl | ⟨1, _⟩ => rfl)
  have eb : idx_main_v16 (idx_main_v17 i) = ix1 (⟨(i 1).val, idx2_lt1 i⟩ : Fin 4096) :=
    funext fun a => Fin.ext (by match a with | ⟨0, _⟩ => rfl)
  rw [val_main_v18_apply, val_main_v15_apply, val_main_v17_apply, val_main_v16_apply]
  simp only [val_main_v14_apply, el, er, eb]
  rfl

end Cert.ReferenceIdeal.Layer

end
-- ==== Proof.Tile.lean ====
/-
  One tile of the kernel, as arithmetic. The body multiplies a block of 512 token rows by a block of 512 weight rows,
  contracting the 4096 input features of both (axis 1 against axis 1) into a zero accumulator, and adds the
  bias block, one row of 512 entries, broadcast down the 512 token rows. Rounding the weights to a narrower format
  is the identity on extended reals, a shape cast to the same shape is the identity, and the zero accumulator
  contributes nothing, so entry `(p, q)` of the tile is `Σ_k a[p, k] · w[q, k] + b[0, q]`.
-/
import proofs.«105380_j84344567759316_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The left operand's token coordinate is the output row, whatever the contracted feature. -/
theorem lhs_row (j : S512x512.Idx) (k : dot_S512x4096_S512x4096_S512x512_1_1_0_0_n_n.contr.Idx) :
    (dot_S512x4096_S512x4096_S512x512_1_1_0_0_n_n.lhsIdx j k 0).val = (j 0).val := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl

/-- Its feature coordinate is the contracted index. -/
theorem lhs_feature (j : S512x512.Idx) (k : dot_S512x4096_S512x4096_S512x512_1_1_0_0_n_n.contr.Idx) :
    (dot_S512x4096_S512x4096_S512x512_1_1_0_0_n_n.lhsIdx j k 1).val = (k ⟨0, by decide⟩).val :=
  dot_S512x4096_S512x4096_S512x512_1_1_0_0_n_n.lhsIdx_val_of_single rfl j k

/-- The right operand is contracted along ITS axis 1 as well, so its row coordinate is the output COLUMN: the
    weights enter row against row. -/
theorem rhs_row (j : S512x512.Idx) (k : dot_S512x4096_S512x4096_S512x512_1_1_0_0_n_n.contr.Idx) :
    (dot_S512x4096_S512x4096_S512x512_1_1_0_0_n_n.rhsIdx j k 0).val = (j 1).val := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl

/-- Its feature coordinate is the contracted index too. -/
theorem rhs_feature (j : S512x512.Idx) (k : dot_S512x4096_S512x4096_S512x512_1_1_0_0_n_n.contr.Idx) :
    (dot_S512x4096_S512x4096_S512x512_1_1_0_0_n_n.rhsIdx j k 1).val = (k ⟨0, by decide⟩).val :=
  dot_S512x4096_S512x4096_S512x512_1_1_0_0_n_n.rhsIdx_val_of_single rfl j k

/-- The left operand of the tile's product at entry `(p, q)` and feature `k` is read at `(p, k)`. -/
theorem lhs_at (p q : Fin 512) (k : Fin 4096) :
    dot_S512x4096_S512x4096_S512x512_1_1_0_0_n_n.lhsIdx (ix2 p q)
        ((contrEquiv1 dot_S512x4096_S512x4096_S512x512_1_1_0_0_n_n 4096 rfl rfl).symm k) = ix2 p k := by
  have hk := contrEquiv1_symm_val dot_S512x4096_S512x4096_S512x512_1_1_0_0_n_n 4096 rfl rfl k
  refine funext fun a => Fin.ext ?_
  match a with
  | ⟨0, _⟩ => exact lhs_row _ _
  | ⟨1, _⟩ => exact (lhs_feature _ _).trans hk

/-- The right operand is read at `(q, k)`. -/
theorem rhs_at (p q : Fin 512) (k : Fin 4096) :
    dot_S512x4096_S512x4096_S512x512_1_1_0_0_n_n.rhsIdx (ix2 p q)
        ((contrEquiv1 dot_S512x4096_S512x4096_S512x512_1_1_0_0_n_n 4096 rfl rfl).symm k) = ix2 q k := by
  have hk := contrEquiv1_symm_val dot_S512x4096_S512x4096_S512x512_1_1_0_0_n_n 4096 rfl rfl k
  refine funext fun a => Fin.ext ?_
  match a with
  | ⟨0, _⟩ => exact rhs_row _ _
  | ⟨1, _⟩ => exact (rhs_feature _ _).trans hk

/-- The product into the zero accumulator, at an entry: the sum over the features of row `p` of the left block
    times row `q` of the right block. -/
theorem product_at (a w : FVec Ideal S512x4096 .bf16) (p q : Fin 512) :
    matmul dot_S512x4096_S512x4096_S512x512_1_1_0_0_n_n none a w (constant (F := Ideal) S512x512 .f32 0x00000000#32) (ix2 p q)
      = ∑ k : Fin 4096, a (ix2 p k) * w (ix2 q k) := by
  refine (Ideal.matmul_constant_zero_apply dot_S512x4096_S512x4096_S512x512_1_1_0_0_n_n none a w (ix2 p q)).trans ?_
  rw [← Equiv.sum_comp (contrEquiv1 dot_S512x4096_S512x4096_S512x512_1_1_0_0_n_n 4096 rfl rfl).symm]
  refine Finset.sum_congr rfl fun k _ => ?_
  rw [lhs_at, rhs_at]

/-- The bias row broadcast down the tile reads, at `(p, q)`, the row's entry `q`. -/
theorem bias_at (b : FVec Ideal S1x512 .f32) (p q : Fin 512) :
    broadcastTo S512x512 b broadcasts_S1x512_S512x512 (ix2 p q) = b (ix2 (0 : Fin 1) q) := by
  refine broadcastTo_apply b broadcasts_S1x512_S512x512 (ix2 p q) (ix2 (0 : Fin 1) q) fun a => ?_
  match a with
  | ⟨0, _⟩ => show (0 : Nat) = if (1 : Nat) = 1 then 0 else _; rw [if_pos rfl]
  | ⟨1, _⟩ => show q.val = if (512 : Nat) = 1 then 0 else q.val; rw [if_neg (by decide)]

/-- THE TILE at an entry: the body's stored value is the sum of products plus the bias entry. -/
theorem pay_at (a : FVec Ideal S512x4096 .bf16) (w : FVec Ideal S512x4096 .f32) (b : FVec Ideal S1x512 .f32) (p q : Fin 512) :
    k0_pay1 (F := Ideal) a w b (ix2 p q) = (∑ k : Fin 4096, a (ix2 p k) * w (ix2 q k)) + b (ix2 (0 : Fin 1) q) := by
  unfold k0_pay1
  simp only [shapeCast_self]
  refine (addf_apply _ _ (ix2 p q)).trans ?_
  rw [product_at, bias_at]
  rfl

end Cert.KernelIdeal.Tile

end
-- ==== Proof.Staged.lean ====
/-
  What the kernel's region finds in the three arrays it stages, as functions of the program's arguments. The host
  lines before the region leave: the tokens rounded to a narrower format, which on extended reals is the tokens
  themselves; the bias viewed as one row `[1, 4096]`, whose entry `(0, o)` is the bias at `o`; and the weights after
  the scattered additions — the dense weights with each sparse value added at its (row, column) position, a
  negative row or column counted from the end — which this proof names `weights` and never opens: the reference
  builds the same array by the same operations.
-/
import proofs.«105380_j84344567759316_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

/-- The weight array the matrix product reads: the dense weights `x1` with the sparse values `x3` added at the
    positions (`x4`, `x5`), an index below zero first moved up by 4096. -/
def weights {F : FTy → Type} [FloatOps F] (x1 : (⟨S4096x4096, .f32⟩ : BufTy).Contents (Elt F)) (x3 : (⟨S835584, .f32⟩ : BufTy).Contents (Elt F))
    (x4 x5 : (⟨S835584, .i32⟩ : BufTy).Contents (Elt F)) : (⟨S4096x4096, .f32⟩ : BufTy).Contents (Elt F) :=
  Host.scatterAdd scatter_S4096x4096_S835584x2_S835584_n_01_01_1 (x1) (concatenate S835584x2 1 [⟨S835584x1, (broadcastInDim S835584x1 ![0] bcast_S835584_S835584x1_0 (select (cmpi .slt (x4) (broadcastInDim S835584 ![] bcast_S_S835584 (constantI S_ 32 0#32))) (addi (x4) (broadcastInDim S835584 ![] bcast_S_S835584 (constantI S_ 32 4096#32))) (x4)))⟩, ⟨S835584x1, (broadcastInDim S835584x1 ![0] bcast_S835584_S835584x1_0 (select (cmpi .slt (x5) (broadcastInDim S835584 ![] bcast_S_S835584 (constantI S_ 32 0#32))) (addi (x5) (broadcastInDim S835584 ![] bcast_S_S835584 (constantI S_ 32 4096#32))) (x5)))⟩] concatenates_S835584x1_S835584x1_S835584x2_d1) (x3)

variable (m : (ℓ : Loc nD τ sig) → Buf (Elt Ideal) ℓ)

/-- The staged tokens are the token argument rounded to the narrower format. -/
theorem tokens_eq (c : Dev nD) :
    (V (F := Ideal) m c main_v14 : S8192x4096.Idx → EReal)
      = truncf (F := Ideal) .bf16 (m ((c : Thread nD τ).loc main_arg0)) bitsLt_bf16_f32 := by
  dsimp only [V, hostOps0]; after_results <;> rfl

/-- Read at an index they are the token argument: the rounding is the identity on extended reals. -/
theorem tokens_at (c : Dev nD) (i : S8192x4096.Idx) :
    (V (F := Ideal) m c main_v14 : S8192x4096.Idx → EReal) i
      = (m ((c : Thread nD τ).loc main_arg0) : S8192x4096.Idx → EReal) i := by
  rw [tokens_eq]; rfl

set_option maxHeartbeats 2000000 in
/-- The staged weights are `weights` of the dense weights, the sparse values and their positions. -/
theorem weights_eq (c : Dev nD) :
    (V (F := Ideal) m c main_v13 : S4096x4096.Idx → EReal)
      = weights (F := Ideal) (m ((c : Thread nD τ).loc main_arg1)) (m ((c : Thread nD τ).loc main_arg3))
          (m ((c : Thread nD τ).loc main_arg4)) (m ((c : Thread nD τ).loc main_arg5)) := by
  dsimp only [V, hostOps0]; after_results <;> rfl

/-- The staged bias is the bias argument viewed as one row. -/
theorem bias_eq (c : Dev nD) :
    (V (F := Ideal) m c main_v15 : S1x4096.Idx → EReal)
      = shapeCast S1x4096 (m ((c : Thread nD τ).loc main_arg2) : S4096.Idx → EReal) shapeCasts_S4096_S1x4096 := by
  dsimp only [V, hostOps0]; after_results <;> rfl

/-- Its entry `(0, o)` is the bias at `o`. -/
theorem bias_at (c : Dev nD) (u : Fin 1) (o : Fin 4096) :
    (V (F := Ideal) m c main_v15 : S1x4096.Idx → EReal) (ix2 u o)
      = (m ((c : Thread nD τ).loc main_arg2) : S4096.Idx → EReal) (ix1 o) := by
  rw [bias_eq]
  exact shapeCast_a_1a_apply _ shapeCasts_S4096_S1x4096 u o

end Cert.KernelIdeal.Staged

end
-- ==== Proof.Blocks.lean ====
/-
  From tiles to the whole result. The grid has 8 × 16 points; at the point whose output block has row-block index
  `i` (of 16) and column-block index `j` (of 8) the pipeline hands the body token rows `512·i … 512·i + 511` (all
  4096 features), weight rows `512·j … 512·j + 511` (all 4096 features) and bias entries `512·j … 512·j + 511`,
  and writes the body's tile back to rows `512·i …`, columns `512·j …` of the result. So entry `(p, q)` of that
  tile is entry `(512·i + p, 512·j + q)` of the dense layer of the staged arrays, each tile is a block of ONE
  array, and the 128 blocks cover the `[8192, 4096]` result: row `r`, column `o` lies in the block of the point
  with `i = r / 512`, `j = o / 512`.
-/
import proofs.«105380_j84344567759316_2_alg».proof.Proof.Gen.KernelIdeal.Value
import proofs.«105380_j84344567759316_2_alg».proof.Proof.Affine
import proofs.«105380_j84344567759316_2_alg».proof.Proof.Tile
import proofs.«105380_j84344567759316_2_alg».proof.Proof.Staged

set_option maxRecDepth 16384

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-- A tile whose operand rows are rows of three whole arrays is an entry of their dense layer: if row `p` of the
    token block is row `r` of `x`, row `q` of the weight block is row `o` of `W`, and entry `q` of the bias block is
    entry `o` of `b`, then entry `(p, q)` of the tile is entry `(r, o)` of `x · Wᵀ + b`. -/
theorem tile_entry (x : S8192x4096.Idx → EReal) (W : S4096x4096.Idx → EReal) (b : S4096.Idx → EReal)
    (a : FVec Ideal S512x4096 .bf16) (w : FVec Ideal S512x4096 .f32) (bb : FVec Ideal S1x512 .f32)
    (p q : Fin 512) (r : Fin 8192) (o : Fin 4096)
    (ha : ∀ k : Fin 4096, a (ix2 p k) = x (ix2 r k))
    (hw : ∀ k : Fin 4096, w (ix2 q k) = W (ix2 o k))
    (hb : bb (ix2 (0 : Fin 1) q) = b (ix1 o)) :
    k0_pay1 (F := Ideal) a w bb (ix2 p q) = Cert.Linear.entry x W b r o := by
  rw [Tile.pay_at, hb]
  unfold Cert.Linear.entry
  exact congrArg (· + b (ix1 o)) (Finset.sum_congr rfl fun k _ => by rw [ha k, hw k])

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 128 grid points: the token block moves with the output's row-block
    index, the weight and bias blocks with its column-block index, the other block indices are zero, and the
    output's block indices stay below 16 and 8. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 15
    ∧ win0_3.index t (1 : Fin 2) ≤ 7 :=
  (by decide +kernel : ∀ t : Fin grid0.N, _)

/-- Every (row-block, column-block) pair is SOME point's output block. -/
theorem idx_onto : ∀ (q0 : Fin 16) (q1 : Fin 8), ∃ t : Fin cfg0.N, win0_3.index t = ![q0.val, q1.val] :=
  (by decide +kernel : ∀ (q0 : Fin 16) (q1 : Fin 8), ∃ t : Fin grid0.N, win0_3.index t = ![q0.val, q1.val])

/-- Row `p` of the token block at point `t` is row `512·i + p` of the token argument. -/
theorem tokens_block (c : Dev nD) (t : Fin cfg0.N) (p : Fin 512) (k : Fin 4096) (r : Fin 8192)
    (hr : r.val = win0_3.index t (0 : Fin 2) * 512 + p.val) :
    iblk m c 0 t (ix2 p k) = (m ((c : Thread nD τ).loc main_arg0) : S8192x4096.Idx → EReal) (ix2 r k) := by
  obtain ⟨e0, e1, e2, e3, e4, e5, e6, e7⟩ := idx_facts t
  show (V (F := Ideal) m c main_v14 : S8192x4096.Idx → EReal) (((cfg0.win 0).blk t).view.emb (ix2 p k)) = _
  rw [Staged.tokens_at]
  refine congrArg _ (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- Row `q` of the weight block at point `t` is row `512·j + q` of the staged weights. -/
theorem weights_block (c : Dev nD) (t : Fin cfg0.N) (q : Fin 512) (k : Fin 4096) (o : Fin 4096)
    (ho : o.val = win0_3.index t (1 : Fin 2) * 512 + q.val) :
    iblk m c 1 t (ix2 q k) = (V (F := Ideal) m c main_v13 : S4096x4096.Idx → EReal) (ix2 o k) := by
  obtain ⟨e0, e1, e2, e3, e4, e5, e6, e7⟩ := idx_facts t
  show (V (F := Ideal) m c main_v13 : S4096x4096.Idx → EReal) (((cfg0.win 1).blk t).view.emb (ix2 q k)) = _
  refine congrArg _ (funext fun a => Fin.ext ?_)
  match a with
  | ⟨0, _⟩ => show win0_1.index t (0 : Fin 2) * 512 + 1 * q.val = o.val; omega
  | ⟨1, _⟩ => show win0_1.index t (1 : Fin 2) * 4096 + 1 * k.val = k.val; omega

/-- Entry `q` of the bias block at point `t` is entry `512·j + q` of the bias argument. -/
theorem bias_block (c : Dev nD) (t : Fin cfg0.N) (q : Fin 512) (o : Fin 4096)
    (ho : o.val = win0_3.index t (1 : Fin 2) * 512 + q.val) :
    iblk m c 2 t (ix2 (0 : Fin 1) q) = (m ((c : Thread nD τ).loc main_arg2) : S4096.Idx → EReal) (ix1 o) := by
  obtain ⟨e0, e1, e2, e3, e4, e5, e6, e7⟩ := idx_facts t
  show (V (F := Ideal) m c main_v15 : S1x4096.Idx → EReal) (((cfg0.win 2).blk t).view.emb (ix2 (0 : Fin 1) q)) = _
  rw [← Staged.bias_at m c (0 : Fin 1) o]
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = o.val; omega

/-- The result array: the dense layer of the token argument, the weights after the scattered additions, and the
    bias argument. -/
def result (c : Dev nD) : S8192x4096.Idx → EReal :=
  Cert.Linear.layer (m ((c : Thread nD τ).loc main_arg0))
    (Staged.weights (F := Ideal) (m ((c : Thread nD τ).loc main_arg1)) (m ((c : Thread nD τ).loc main_arg3))
      (m ((c : Thread nD τ).loc main_arg4)) (m ((c : Thread nD τ).loc main_arg5)))
    (m ((c : Thread nD τ).loc main_arg2))

/-- WHAT POINT `t` WRITES BACK is block `t` of `result`. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz]
  simp only [View.ld_unit_zero (S := S512x4096) hz, View.ld_unit_zero (S := S1x512) hz]
  obtain ⟨e0, e1, e2, e3, e4, e5, e6, e7⟩ := idx_facts t
  funext j
  obtain ⟨p, q, rfl⟩ : ∃ (p q : Fin 512), j = ix2 p q := ⟨j 0, j 1, eq_ix2 j⟩
  have hr : win0_3.index t (0 : Fin 2) * 512 + p.val < 8192 := by have := p.isLt; omega
  have ho : win0_3.index t (1 : Fin 2) * 512 + q.val < 4096 := by have := q.isLt; omega
  show k0_pay1 (F := Ideal) (iblk m c 0 t) (iblk m c 1 t) (iblk m c 2 t) (ix2 p q)
    = result m c (((cfg0.win 3).blk t).view.emb (ix2 p q))
  have hemb : ((cfg0.win 3).blk t).view.emb (ix2 p q)
      = ix2 (⟨win0_3.index t (0 : Fin 2) * 512 + p.val, hr⟩ : Fin 8192) (⟨win0_3.index t (1 : Fin 2) * 512 + q.val, ho⟩ : Fin 4096) := by
    refine funext fun a => Fin.ext ?_
    match a with
    | ⟨0, _⟩ => show win0_3.index t (0 : Fin 2) * 512 + 1 * p.val = win0_3.index t (0 : Fin 2) * 512 + p.val; omega
    | ⟨1, _⟩ => show win0_3.index t (1 : Fin 2) * 512 + 1 * q.val = win0_3.index t (1 : Fin 2) * 512 + q.val; omega
  rw [hemb]
  unfold result
  rw [Cert.Linear.layer_ix2, ← Staged.weights_eq m c]
  exact tile_entry _ _ _ _ _ _ p q _ _ (fun k => tokens_block m c t p k _ rfl) (fun k => weights_block m c t q k _ rfl)
    (bias_block m c t q _ rfl)

/-- An index of the result is in point `t`'s block iff each coordinate is in the block's range on its axis. -/
theorem mem_blk (t : Fin cfg0.N) (i : S8192x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v16).slice (win0_3.rect t)).set ↔ _
  rw [View.set_slice_whole, Rect.mem_set_unit]
  exact Iff.rfl

/-- THE BLOCKS COVER THE RESULT: row `r`, column `o` lies in the block of the point with row-block index `r / 512`
    and column-block index `o / 512`. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE RESULT ARRAY after the run is `result`. -/
theorem final (c : Dev nD) : (dats m 0 c).arrAt 3 cfg0.N = result m c :=
  (dats m 0 c).arrAt_eq_of_cover 3 (result m c) (fun t _ => flushed_eq m c t) cover

/-- The kernel's run, read: the result array at the dense layer of the arguments, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Blocks

end
-- ==== Proof.lean ====
/-
  A linear layer whose weight matrix is a dense matrix plus scattered sparse corrections, `y = x · Wᵀ + b` with
  `x : [8192, 4096]`, `W : [4096, 4096]`, `b : [4096]`: a tiled kernel against the plain matrix product.

  Both programs first build `W` by the same host operations (the sparse values added into the dense weights at
  their row and column positions), and this proof carries that array as one term, never opened. The kernel then
  rounds the tokens to a narrower float format — the identity on extended reals —, views the bias as one row, and
  for each of 8 × 16 tiles multiplies 512 token rows by 512 weight rows over all 4096 features into a zero
  accumulator and adds the tile's 512 bias entries; the tiles are disjoint blocks that cover the result. The
  reference transposes `W`, multiplies `x` by it, and adds the bias broadcast along the tokens. At every entry
  `(t, o)` both are `Σ_k x[t, k] · W[o, k] + b[o]`, the same products added in the same order, so the two results
  agree on all extended reals and the finiteness of the inputs is never used.

  The modules: `Affine` (the layer as one function), `RefLayer` (the reference computes it), `Tile` (one tile of
  the kernel as arithmetic), `Staged` (the arrays the kernel's region reads, in terms of the arguments),
  `Blocks` (each tile is a block of the layer, the blocks cover the result, the kernel's run), and the claims here.
-/
import proofs.«105380_j84344567759316_2_alg».proof.Defs
import proofs.«105380_j84344567759316_2_alg».proof.Proof.Gen.Kernel
import proofs.«105380_j84344567759316_2_alg».proof.Proof.Gen.Kernel.Frame
import proofs.«105380_j84344567759316_2_alg».proof.Proof.Gen.KernelIdeal
import proofs.«105380_j84344567759316_2_alg».proof.Proof.Gen.KernelIdeal.Frame
import proofs.«105380_j84344567759316_2_alg».proof.Proof.Gen.KernelIdeal.Value
import proofs.«105380_j84344567759316_2_alg».proof.Proof.Gen.ReferenceIdeal
import proofs.«105380_j84344567759316_2_alg».proof.Proof.Gen.ReferenceIdeal.Run
import proofs.«105380_j84344567759316_2_alg».proof.Proof.Gen.ReferenceIdeal.Read
import proofs.«105380_j84344567759316_2_alg».proof.Proof.Gen.Pre_finite_inputs
import proofs.«105380_j84344567759316_2_alg».proof.Proof.RefLayer
import proofs.«105380_j84344567759316_2_alg».proof.Proof.Blocks
import Idealize.ShloMosaic.Adequacy
import Idealize.ShloMosaic.Init

noncomputable section

namespace Cert.Proof

open Idealize.ShloMosaic Idealize.ShloMosaic.TcCoe Idealize.SL.Sem

/-- The two programs build the weight matrix by the same operations on the same arguments: one array. -/
theorem weights_same (x1 : (⟨Cert.ReferenceIdeal.S4096x4096, .f32⟩ : BufTy).Contents (Elt Ideal))
    (x3 : (⟨Cert.ReferenceIdeal.S835584, .f32⟩ : BufTy).Contents (Elt Ideal))
    (x4 x5 : (⟨Cert.ReferenceIdeal.S835584, .i32⟩ : BufTy).Contents (Elt Ideal)) :
    Cert.KernelIdeal.Staged.weights (F := Ideal) x1 x3 x4 x5 = Cert.ReferenceIdeal.Read.val_main_v13 (F := Ideal) x1 x3 x4 x5 :=
  rfl

/-- The kernel as printed runs to the end without a fault and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel: nothing to preserve. -/
theorem preserves : Cert.preserves_Kernel_KernelIdeal := trivial

/-- Both runs end with the result at `x · Wᵀ + b` of the shared arguments: the kernel's tiles assemble to it, the
    reference's operations read to it, and the weight matrices are the same array. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v18_eq, Cert.ReferenceIdeal.Layer.result_eq, h0, h1, h2, h3, h4, h5]
  show _ = Cert.KernelIdeal.Blocks.result m c
  unfold Cert.KernelIdeal.Blocks.result
  rw [weights_same]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
